-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) (main_arg1 : FVec F S8x3x1024x1024 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S8x3x1024x1024 : Shape := ⟨4, ![8, 3, 1024, 1024]⟩
abbrev S24x1024x1024 : Shape := ⟨3, ![24, 1024, 1024]⟩
abbrev S24x1x128 : Shape := ⟨3, ![24, 1, 128]⟩
abbrev S1x1024x1024 : Shape := ⟨3, ![1, 1024, 1024]⟩
abbrev S1x1x128 : Shape := ⟨3, ![1, 1, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S1x128 : Shape := ⟨2, ![1, 128]⟩
abbrev S24x1x1 : Shape := ⟨3, ![24, 1, 1]⟩
abbrev S24 : Shape := ⟨1, ![24]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S8x3x1024x1024, .f32⟩
  | .hbm, ⟨1, _⟩ => ⟨S8x3x1024x1024, .f32⟩
  | .hbm, ⟨2, _⟩ => ⟨S24x1024x1024, .f32⟩
  | .hbm, ⟨3, _⟩ => ⟨S24x1024x1024, .f32⟩
  | .hbm, ⟨4, _⟩ => ⟨S24x1x128, .f32⟩
  | .hbm, ⟨5, _⟩ => ⟨S24x1x1, .f32⟩
  | .hbm, ⟨6, _⟩ => ⟨S24, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x128, .f32⟩
  | .local _ .vmem, ⟨5, _⟩ => ⟨S1x1x128, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x3x1024x1024_S24x1024x1024 : S8x3x1024x1024.ShapeCasts S24x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1x1024_S1024x1024 : S1x1024.Broadcasts S1024x1024
  reduces_S1024x1_S1 : S1024x1.Reduces [0] S1
  shapeCasts_S1_S1x1 : S1.ShapeCasts S1x1
  broadcasts_S1024x1_S1024x1024 : S1024x1.Broadcasts S1024x1024
  reduces_S1024x1024_S1024_2 : S1024x1024.Reduces [0] S1024
  shapeCasts_S1024_S1x1024 : S1024.ShapeCasts S1x1024
  reduces_S1x1024_S1 : S1x1024.Reduces [1] S1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S24x1x128_S24x1x1_0_0_0 : S24x1x128.Slices ![0, 0, 0] S24x1x1
  shapeCasts_S24x1x1_S24 : S24x1x1.ShapeCasts S24
  reducesTo_S24_S_d0 : S24.ReducesTo [0] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S24x1024x1024.size a
  hwx0_0 : ∀ i : grid0.Coords, EltTy.bits .f32 = 32 ∨ (Rect.block (s := S24x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S24x1024x1024.size a
  hwx0_1 : ∀ i : grid0.Coords, EltTy.bits .f32 = 32 ∨ (Rect.block (s := S24x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S24x1x128.size a
  hwx0_2 : ∀ i : grid0.Coords, EltTy.bits .f32 = 32 ∨ (Rect.block (s := S24x1x128) S1x1x128.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S_ : Shape := ⟨0, ![]⟩
abbrev S8x3x1024 : Shape := ⟨3, ![8, 3, 1024]⟩
abbrev S8x3x1024x1 : Shape := ⟨4, ![8, 3, 1024, 1]⟩
abbrev S8x3x1x1024 : Shape := ⟨4, ![8, 3, 1, 1024]⟩
abbrev S8x3 : Shape := ⟨2, ![8, 3]⟩

abbrev nBuf : Space → Nat
  | .hbm => 35
  | .vmem => 0
  | .smem => 0
  | _ => 0

abbrev bufTy : (tb : Table) → Fin (tcTables nBuf tb) → BufTy
  | .hbm, ⟨0, _⟩ => ⟨S8x3x1024x1024, .f32⟩
  | .hbm, ⟨1, _⟩ => ⟨S8x3x1024x1024, .f32⟩
  | .hbm, ⟨2, _⟩ => ⟨S8x3x1024x1024, .f32⟩
  | .hbm, ⟨3, _⟩ => ⟨S_, .f32⟩
  | .hbm, ⟨4, _⟩ => ⟨S8x3x1024, .f32⟩
  | .hbm, ⟨5, _⟩ => ⟨S8x3x1024x1024, .f32⟩
  | .hbm, ⟨6, _⟩ => ⟨S_, .f32⟩
  | .hbm, ⟨7, _⟩ => ⟨S8x3x1024, .f32⟩
  | .hbm, ⟨8, _⟩ => ⟨S8x3x1024x1024, .f32⟩
  | .hbm, ⟨9, _⟩ => ⟨S8x3x1024x1, .f32⟩
  | .hbm, ⟨10, _⟩ => ⟨S8x3x1x1024, .f32⟩
  | .hbm, ⟨11, _⟩ => ⟨S8x3x1024x1024, .f32⟩
  | .hbm, ⟨12, _⟩ => ⟨S8x3x1024x1024, .f32⟩
  | .hbm, ⟨13, _⟩ => ⟨S8x3x1024x1024, .f32⟩
  | .hbm, ⟨14, _⟩ => ⟨S_, .f32⟩
  | .hbm, ⟨15, _⟩ => ⟨S8x3x1024x1024, .f32⟩
  | .hbm, ⟨16, _⟩ => ⟨S8x3x1024x1024, .f32⟩
  | .hbm, ⟨17, _⟩ => ⟨S8x3x1024x1024, .f32⟩
  | .hbm, ⟨18, _⟩ => ⟨S_, .f32⟩
  | .hbm, ⟨19, _⟩ => ⟨S8x3x1024x1024, .f32⟩
  | .hbm, ⟨20, _⟩ => ⟨S8x3x1024x1024, .f32⟩
  | .hbm, ⟨21, _⟩ => ⟨S8x3x1024x1024, .f32⟩
  | .hbm, ⟨22, _⟩ => ⟨S_, .f32⟩
  | .hbm, ⟨23, _⟩ => ⟨S8x3x1024, .f32⟩
  | .hbm, ⟨24, _⟩ => ⟨S_, .f32⟩
  | .hbm, ⟨25, _⟩ => ⟨S8x3, .f32⟩
  | .hbm, ⟨26, _⟩ => ⟨S_, .f32⟩
  | .hbm, ⟨27, _⟩ => ⟨S8x3x1024, .f32⟩
  | .hbm, ⟨28, _⟩ => ⟨S_, .f32⟩
  | .hbm, ⟨29, _⟩ => ⟨S8x3, .f32⟩
  | .hbm, ⟨30, _⟩ => ⟨S8x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8x3x1024x1024_S8x3x1024_d3 : S8x3x1024x1024.ReducesTo [3] S8x3x1024
  h_S_ : 0 < S_.numel
  bcast_S8x3x1024_S8x3x1024x1_0_1_2 : S8x3x1024.BroadcastsInDim S8x3x1024x1 (![0, 1, 2] : Fin 3 → Fin S8x3x1024x1.rank)
  bcast_S8x3x1024_S8x3x1x1024_0_1_3 : S8x3x1024.BroadcastsInDim S8x3x1x1024 (![0, 1, 3] : Fin 3 → Fin S8x3x1x1024.rank)
  bcast_S8x3x1024x1_S8x3x1024x1024_0_1_2_3 : S8x3x1024x1.BroadcastsInDim S8x3x1024x1024 (![0, 1, 2, 3] : Fin 4 → Fin S8x3x1024x1024.rank)
  bcast_S8x3x1x1024_S8x3x1024x1024_0_1_2_3 : S8x3x1x1024.BroadcastsInDim S8x3x1024x1024 (![0, 1, 2, 3] : Fin 4 → Fin S8x3x1024x1024.rank)
  bcast_S_S8x3x1024x1024 : S_.BroadcastsInDim S8x3x1024x1024 (![] : Fin 0 → Fin S8x3x1024x1024.rank)
  reducesTo_S8x3x1024_S8x3_d2 : S8x3x1024.ReducesTo [2] S8x3
  reducesTo_S8x3x1024x1024_S8x3x1024_d2 : S8x3x1024x1024.ReducesTo [2] S8x3x1024
  reducesTo_S8x3_S_d0_1 : S8x3.ReducesTo [0, 1] S_
  dot_S8x3x1024x1024_S8x3x1024x1024_S8x3x1024x1024_3_3_2_2_01_01_wf : DotDims.WF S8x3x1024x1024 S8x3x1024x1024 S8x3x1024x1024 [3] [3] [2] [2] [0, 1] [0, 1]

variable [Facts₀]

def dot_S8x3x1024x1024_S8x3x1024x1024_S8x3x1024x1024_3_3_2_2_01_01 : DotDims S8x3x1024x1024 S8x3x1024x1024 S8x3x1024x1024 where
  lhsContracting := [3]
  rhsContracting := [3]
  lhsNonContracting := [2]
  rhsNonContracting := [2]
  lhsBatch := [0, 1]
  rhsBatch := [0, 1]
  wf := dot_S8x3x1024x1024_S8x3x1024x1024_S8x3x1024x1024_3_3_2_2_01_01_wf

class Facts : Prop extends Facts₀ where

variable [Facts]
-- ==== Proof.Spec.lean ====
/-
  The symmetric Hausdorff distance between two finite point sets, in the two arrangements the two programs compute.

  Points are the rows of `x : Fin N → Fin D → EReal` and `y : Fin M → Fin D → EReal`.  With the squared norms
  `‖x n‖² = ∑ k, x n k · x n k`, the cross terms `⟨x n, y m⟩ = ∑ k, x n k · y m k` and a factor `two`, the squared
  distance is `d²(n, m) = (‖x n‖² + ‖y m‖²) − two · ⟨x n, y m⟩`.  One arrangement takes the root of the clamped squared
  distance first, and then the directed distances `max_n min_m` and `max_m min_n` and their maximum (`refPair`); the
  other reduces on the squared distance — adding `‖x n‖²` only after the minimum over `m` in the forward direction —
  and takes one root at the end (`kerPair`).  Largest and smallest values over a finite index are folds of `max` from
  `⊥` and of `min` from `⊤`.
-/
import Idealize.ShloMosaic.PureOps.Ideal
import Idealize.ShloMosaic.Lib.ValueIdx

noncomputable section

open scoped BigOperators

namespace Cert.Hausdorff

open Idealize.ShloMosaic Idealize.ShloMosaic.ValueIdx

/-- The largest value of `f` over `Fin n`: the fold of `max` from `⊥`. -/
def bigMax {n : ℕ} (f : Fin n → EReal) : EReal := (Finset.univ : Finset (Fin n)).fold max ⊥ f

/-- The smallest value of `f` over `Fin n`: the fold of `min` from `⊤`. -/
def bigMin {n : ℕ} (f : Fin n → EReal) : EReal := (Finset.univ : Finset (Fin n)).fold min ⊤ f

variable {N M D : ℕ}

/-- The squared norm of point `n`. -/
def sqNorm (x : Fin N → Fin D → EReal) (n : Fin N) : EReal := ∑ k : Fin D, x n k * x n k

/-- The inner product of point `n` of `x` and point `m` of `y`. -/
def cross (x : Fin N → Fin D → EReal) (y : Fin M → Fin D → EReal) (n : Fin N) (m : Fin M) : EReal :=
  ∑ k : Fin D, x n k * y m k

/-- The root of the squared distance clamped at zero, the squared distance grouped as `(‖x n‖² + ‖y m‖²) − two·⟨x n, y m⟩`. -/
def dist (two : EReal) (x : Fin N → Fin D → EReal) (y : Fin M → Fin D → EReal) (n : Fin N) (m : Fin M) : EReal :=
  Ideal.sqrt (max ((sqNorm x n + sqNorm y m) - two * cross x y n m) 0)

/-- Roots first: the larger of the two directed distances `max_n min_m dist` and `max_m min_n dist`. -/
def refPair (two : EReal) (x : Fin N → Fin D → EReal) (y : Fin M → Fin D → EReal) : EReal :=
  max (bigMax fun n => bigMin fun m => dist two x y n m) (bigMax fun m => bigMin fun n => dist two x y n m)

/-- One root at the end: forward, `max_n (min_m (‖y m‖² − two·⟨x n, y m⟩) + ‖x n‖²)`; backward,
    `max_m min_n (‖x n‖² + (‖y m‖² − two·⟨x n, y m⟩))`; the root of their maximum clamped at zero. -/
def kerPair (two : EReal) (x : Fin N → Fin D → EReal) (y : Fin M → Fin D → EReal) : EReal :=
  Ideal.sqrt (max (max (bigMax fun n => (bigMin fun m => sqNorm y m - two * cross x y n m) + sqNorm x n)
      (bigMax fun m => bigMin fun n => sqNorm x n + (sqNorm y m - two * cross x y n m))) 0)

/-- Pair `(b, c)` of a `[8, 3, 1024, 1024]` array: its 1024 points of 1024 coordinates. -/
def slab (a : (⟨4, ![8, 3, 1024, 1024]⟩ : Shape).Idx → EReal) (b : Fin 8) (c : Fin 3) : Fin 1024 → Fin 1024 → EReal :=
  fun n k => a (ix4 b c n k)

/-- The sum over the 24 pairs of their Hausdorff distances (the mean's numerator). -/
def total (two : EReal) (a0 a1 : (⟨4, ![8, 3, 1024, 1024]⟩ : Shape).Idx → EReal) : EReal :=
  ∑ b : Fin 8, ∑ c : Fin 3, refPair two (slab a0 b c) (slab a1 b c)

end Cert.Hausdorff

end
-- ==== Proof.RefValue.lean ====
/-
  The value of the reference program.

  The reference computes, for each of the 24 pairs `(b, c)`, the squared norms of the points of both sets, their inner
  products, the root of the clamped squared distance at every pair of points, the two directed distances
  `max_n min_m` and `max_m min_n` and their maximum; then it sums over the pairs.  Here each of its stages is read at an
  index built from coordinates, down to the sum `total` of the specification.
-/
import proofs.«132896_j44796508897916_2_alg».proof.Proof.Spec
import proofs.«132896_j44796508897916_2_alg».proof.Proof.Gen.ReferenceIdeal.Read
import Idealize.ShloMosaic.PureOps.Reduce

noncomputable section

open scoped BigOperators

namespace Cert.Hausdorff.Ref

open Cert.ReferenceIdeal Cert.ReferenceIdeal.Gen Cert.ReferenceIdeal.Read Idealize.ShloMosaic Idealize.ShloMosaic.ValueIdx

/-! ## The start values of the folds -/

private theorem top_bits : Ideal.ofBits .f32 0x7F800000#32 = (⊤ : EReal) := by simp [Ideal.ofBits, Ideal.ieee]

private theorem bot_bits : Ideal.ofBits .f32 0xFF800000#32 = (⊥ : EReal) := by simp [Ideal.ofBits, Ideal.ieee]

/-! ## The index maps at indices built from coordinates -/

private theorem idx1_ix (b : Fin 8) (c : Fin 3) (n k : Fin 1024) : idx_main_v1 (ix3 b c n) k = ix4 b c n k :=
  funext fun a => Fin.ext (by match a with | ⟨0, _⟩ => rfl | ⟨1, _⟩ => rfl | ⟨2, _⟩ => rfl | ⟨3, _⟩ => rfl)

private theorem idx3_ix (b : Fin 8) (c : Fin 3) (n k : Fin 1024) : idx_main_v3 (ix3 b c n) k = ix4 b c n k :=
  funext fun a => Fin.ext (by match a with | ⟨0, _⟩ => rfl | ⟨1, _⟩ => rfl | ⟨2, _⟩ => rfl | ⟨3, _⟩ => rfl)

private theorem lidx4_ix (b : Fin 8) (c : Fin 3) (n m k : Fin 1024) : lidx_main_v4 (ix4 b c n m) k = ix4 b c n k :=
  funext fun a => Fin.ext (by match a with | ⟨0, _⟩ => rfl | ⟨1, _⟩ => rfl | ⟨2, _⟩ => rfl | ⟨3, _⟩ => rfl)

private theorem ridx4_ix (b : Fin 8) (c : Fin 3) (n m k : Fin 1024) : ridx_main_v4 (ix4 b c n m) k = ix4 b c m k :=
  funext fun a => Fin.ext (by match a with | ⟨0, _⟩ => rfl | ⟨1, _⟩ => rfl | ⟨2, _⟩ => rfl | ⟨3, _⟩ => rfl)

private theorem idx7_ix (b : Fin 8) (c : Fin 3) (n m : Fin 1024) : idx_main_v7 (ix4 b c n m) = ix4 b c n (0 : Fin 1) :=
  funext fun a => Fin.ext (by match a with | ⟨0, _⟩ => rfl | ⟨1, _⟩ => rfl | ⟨2, _⟩ => rfl | ⟨3, _⟩ => rfl)

private theorem idx5_ix (b : Fin 8) (c : Fin 3) (n : Fin 1024) (z : Fin 1) : idx_main_v5 (ix4 b c n z) = ix3 b c n :=
  funext fun a => Fin.ext (by match a with | ⟨0, _⟩ => rfl | ⟨1, _⟩ => rfl | ⟨2, _⟩ => rfl)

private theorem idx8_ix (b : Fin 8) (c : Fin 3) (n m : Fin 1024) : idx_main_v8 (ix4 b c n m) = ix4 b c (0 : Fin 1) m :=
  funext fun a => Fin.ext (by match a with | ⟨0, _⟩ => rfl | ⟨1, _⟩ => rfl | ⟨2, _⟩ => rfl | ⟨3, _⟩ => rfl)

private theorem idx6_ix (b : Fin 8) (c : Fin 3) (z : Fin 1) (m : Fin 1024) : idx_main_v6 (ix4 b c z m) = ix3 b c m :=
  funext fun a => Fin.ext (by match a with | ⟨0, _⟩ => rfl | ⟨1, _⟩ => rfl | ⟨2, _⟩ => rfl)

/-! ## The squared norms, the inner products and the distances -/

/-- The first reduce is the squared norm of point `n` of the first set. -/
theorem v1_ix (x0 : (⟨S8x3x1024x1024, .f32⟩ : BufTy).Contents (Elt Ideal)) (b : Fin 8) (c : Fin 3) (n : Fin 1024) :
    val_main_v1 (F := Ideal) x0 (ix3 b c n) = sqNorm (slab x0 b c) n := by
  rw [val_main_v1_apply, val_main_cst_apply, Ideal.ofBits_def, Ideal.ofBits_zero_f32, zero_add]
  unfold sqNorm slab
  refine Finset.sum_congr rfl fun k _ => ?_
  rw [val_main_v0_apply, Ideal.mulf_def, idx1_ix]

/-- The second reduce is the squared norm of point `m` of the second set. -/
theorem v3_ix (x1 : (⟨S8x3x1024x1024, .f32⟩ : BufTy).Contents (Elt Ideal)) (b : Fin 8) (c : Fin 3) (m : Fin 1024) :
    val_main_v3 (F := Ideal) x1 (ix3 b c m) = sqNorm (slab x1 b c) m := by
  rw [val_main_v3_apply, val_main_cst_0_apply, Ideal.ofBits_def, Ideal.ofBits_zero_f32, zero_add]
  unfold sqNorm slab
  refine Finset.sum_congr rfl fun k _ => ?_
  rw [val_main_v2_apply, Ideal.mulf_def, idx3_ix]

/-- The contraction is the inner product of point `n` of the first set and point `m` of the second. -/
theorem v4_ix (x0 x1 : (⟨S8x3x1024x1024, .f32⟩ : BufTy).Contents (Elt Ideal)) (b : Fin 8) (c : Fin 3) (n m : Fin 1024) :
    val_main_v4 (F := Ideal) x0 x1 (ix4 b c n m) = cross (slab x0 b c) (slab x1 b c) n m := by
  rw [val_main_v4_apply]
  unfold cross slab
  refine Finset.sum_congr rfl fun k _ => ?_
  rw [lidx4_ix, ridx4_ix]

/-- The root stage is the distance between point `n` of the first set and point `m` of the second. -/
theorem v15_ix (x0 x1 : (⟨S8x3x1024x1024, .f32⟩ : BufTy).Contents (Elt Ideal)) (b : Fin 8) (c : Fin 3) (n m : Fin 1024) :
    val_main_v15 (F := Ideal) x0 x1 (ix4 b c n m)
      = dist (Ideal.ofBits .f32 0x40000000#32) (slab x0 b c) (slab x1 b c) n m := by
  rw [val_main_v15_apply, val_main_v14_apply, val_main_v13_apply, val_main_cst_2_apply, val_main_v12_apply,
    val_main_v11_apply, val_main_v10_apply, val_main_cst_1_apply, val_main_v9_apply, val_main_v8_apply,
    val_main_v7_apply, val_main_v6_apply, val_main_v5_apply, idx7_ix, idx5_ix, idx8_ix, idx6_ix, v1_ix, v3_ix, v4_ix]
  simp only [Ideal.hostUnary_sqrt_def, Ideal.maximumf_def, Ideal.subf_def, Ideal.addf_def, Ideal.mulf_def,
    Ideal.ofBits_def, Ideal.ofBits_zero_f32]
  rfl

/-! ## The four folds -/

/-- Over the last axis: the index `(b, c, n)` with coordinate `k` put back is `(b, c, n, k)`. -/
private theorem lift_d3 (h : S8x3x1024x1024.Reduces [3] S8x3x1024) (b : Fin 8) (c : Fin 3) (n : Fin 1024)
    (k : Fin (S8x3x1024x1024.size 3)) : h.lift (ix3 b c n) k = ix4 b c n (⟨k.val, k.isLt⟩ : Fin 1024) := by
  funext d; apply Fin.ext
  fin_cases d <;> rfl

/-- Over the third axis: the index `(b, c, m)` with coordinate `k` put back is `(b, c, k, m)`. -/
private theorem lift_d2 (h : S8x3x1024x1024.Reduces [2] S8x3x1024) (b : Fin 8) (c : Fin 3) (m : Fin 1024)
    (k : Fin (S8x3x1024x1024.size 2)) : h.lift (ix3 b c m) k = ix4 b c (⟨k.val, k.isLt⟩ : Fin 1024) m := by
  funext d; apply Fin.ext
  fin_cases d <;> rfl

/-- Over the last axis of the rank-3 array: the index `(b, c)` with coordinate `k` put back is `(b, c, k)`. -/
private theorem lift_e2 (h : S8x3x1024.Reduces [2] S8x3) (b : Fin 8) (c : Fin 3)
    (k : Fin (S8x3x1024.size 2)) : h.lift (ix2 b c) k = ix3 b c (⟨k.val, k.isLt⟩ : Fin 1024) := by
  funext d; apply Fin.ext
  fin_cases d <;> rfl

/-- A minimum reduce from +∞ over the last axis, at `(b, c, n)`, is the smallest value over `m` at `(b, c, n, m)`. -/
private theorem reduceMin_d3 (y : S8x3x1024x1024.Idx → EReal) (b : Fin 8) (c : Fin 3) (n : Fin 1024) :
    Host.reduce (FloatOps.minimumf (F := Ideal) (φ := .f32)) y (val_main_cst_3 (F := Ideal))
        reducesTo_S8x3x1024x1024_S8x3x1024_d3 h_S_ (ix3 b c n)
      = bigMin fun m : Fin 1024 => y (ix4 b c n m) := by
  have h : S8x3x1024x1024.Reduces [3] S8x3x1024 := by decide
  rw [Host.reduce_eq_fold_single (FloatOps.minimumf (F := Ideal) (φ := .f32)) y _
    reducesTo_S8x3x1024x1024_S8x3x1024_d3 h h_S_, val_main_cst_3_apply, Ideal.ofBits_def, top_bits]
  have hf : (y ∘ h.lift (ix3 b c n)) = fun m : Fin 1024 => y (ix4 b c n m) :=
    funext fun k => congrArg y (lift_d3 h b c n k)
  exact congrArg (fun f => Finset.fold min (⊤ : EReal) f (Finset.univ : Finset (Fin 1024))) hf

/-- A minimum reduce from +∞ over the third axis, at `(b, c, m)`, is the smallest value over `n` at `(b, c, n, m)`. -/
private theorem reduceMin_d2 (y : S8x3x1024x1024.Idx → EReal) (b : Fin 8) (c : Fin 3) (m : Fin 1024) :
    Host.reduce (FloatOps.minimumf (F := Ideal) (φ := .f32)) y (val_main_cst_5 (F := Ideal))
        reducesTo_S8x3x1024x1024_S8x3x1024_d2 h_S_ (ix3 b c m)
      = bigMin fun n : Fin 1024 => y (ix4 b c n m) := by
  have h : S8x3x1024x1024.Reduces [2] S8x3x1024 := by decide
  rw [Host.reduce_eq_fold_single (FloatOps.minimumf (F := Ideal) (φ := .f32)) y _
    reducesTo_S8x3x1024x1024_S8x3x1024_d2 h h_S_, val_main_cst_5_apply, Ideal.ofBits_def, top_bits]
  have hf : (y ∘ h.lift (ix3 b c m)) = fun n : Fin 1024 => y (ix4 b c n m) :=
    funext fun k => congrArg y (lift_d2 h b c m k)
  exact congrArg (fun f => Finset.fold min (⊤ : EReal) f (Finset.univ : Finset (Fin 1024))) hf

/-- A maximum reduce from −∞ over the last axis of a rank-3 array, at `(b, c)`, is the largest value over `k` at `(b, c, k)`. -/
private theorem reduceMax_e2 (y : S8x3x1024.Idx → EReal) (init : S_.Idx → EReal)
    (hi : init (Shape.Idx.first h_S_) = Ideal.ofBits .f32 0xFF800000#32) (b : Fin 8) (c : Fin 3) :
    Host.reduce (FloatOps.maximumf (F := Ideal) (φ := .f32)) y init reducesTo_S8x3x1024_S8x3_d2 h_S_ (ix2 b c)
      = bigMax fun k : Fin 1024 => y (ix3 b c k) := by
  have h : S8x3x1024.Reduces [2] S8x3 := by decide
  rw [Host.reduce_eq_fold_single (FloatOps.maximumf (F := Ideal) (φ := .f32)) y _
    reducesTo_S8x3x1024_S8x3_d2 h h_S_, hi, bot_bits]
  have hf : (y ∘ h.lift (ix2 b c)) = fun k : Fin 1024 => y (ix3 b c k) :=
    funext fun k => congrArg y (lift_e2 h b c k)
  exact congrArg (fun f => Finset.fold max (⊥ : EReal) f (Finset.univ : Finset (Fin 1024))) hf

/-- The forward inner fold: the smallest distance from point `n` of the first set to the second set. -/
theorem v16_ix (x0 x1 : (⟨S8x3x1024x1024, .f32⟩ : BufTy).Contents (Elt Ideal)) (b : Fin 8) (c : Fin 3) (n : Fin 1024) :
    val_main_v16 (F := Ideal) x0 x1 (ix3 b c n)
      = bigMin fun m : Fin 1024 => val_main_v15 (F := Ideal) x0 x1 (ix4 b c n m) := by
  unfold val_main_v16
  generalize val_main_v15 (F := Ideal) x0 x1 = y
  exact reduceMin_d3 y b c n

/-- The backward inner fold: the smallest distance from point `m` of the second set to the first set. -/
theorem v18_ix (x0 x1 : (⟨S8x3x1024x1024, .f32⟩ : BufTy).Contents (Elt Ideal)) (b : Fin 8) (c : Fin 3) (m : Fin 1024) :
    val_main_v18 (F := Ideal) x0 x1 (ix3 b c m)
      = bigMin fun n : Fin 1024 => val_main_v15 (F := Ideal) x0 x1 (ix4 b c n m) := by
  unfold val_main_v18
  generalize val_main_v15 (F := Ideal) x0 x1 = y
  exact reduceMin_d2 y b c m

/-- The forward directed distance. -/
theorem v17_ix (x0 x1 : (⟨S8x3x1024x1024, .f32⟩ : BufTy).Contents (Elt Ideal)) (b : Fin 8) (c : Fin 3) :
    val_main_v17 (F := Ideal) x0 x1 (ix2 b c)
      = bigMax fun n : Fin 1024 => val_main_v16 (F := Ideal) x0 x1 (ix3 b c n) := by
  unfold val_main_v17
  generalize val_main_v16 (F := Ideal) x0 x1 = y
  exact reduceMax_e2 y _ (val_main_cst_4_apply _) b c

/-- The backward directed distance. -/
theorem v19_ix (x0 x1 : (⟨S8x3x1024x1024, .f32⟩ : BufTy).Contents (Elt Ideal)) (b : Fin 8) (c : Fin 3) :
    val_main_v19 (F := Ideal) x0 x1 (ix2 b c)
      = bigMax fun m : Fin 1024 => val_main_v18 (F := Ideal) x0 x1 (ix3 b c m) := by
  unfold val_main_v19
  generalize val_main_v18 (F := Ideal) x0 x1 = y
  exact reduceMax_e2 y _ (val_main_cst_6_apply _) b c

/-! ## The sum over the pairs -/

/-- The reference's sum stage is zero plus the sum over the 24 pairs of their Hausdorff distances. -/
theorem ref_sum (x0 x1 : (⟨S8x3x1024x1024, .f32⟩ : BufTy).Contents (Elt Ideal)) :
    val_main_v21 (F := Ideal) x0 x1
      = fun _ => Ideal.ofBits .f32 0x00000000#32 + Cert.Hausdorff.total (Ideal.ofBits .f32 0x40000000#32) x0 x1 := by
  funext i
  rw [val_main_v21_apply, val_main_cst_7_apply, Ideal.ofBits_def, sum_idx2]
  unfold total
  refine congrArg (_ + ·) (Finset.sum_congr rfl fun b _ => Finset.sum_congr rfl fun c _ => ?_)
  rw [val_main_v20_apply, Ideal.maximumf_def, v17_ix, v19_ix]
  unfold refPair
  simp only [v16_ix, v18_ix, v15_ix]

end Cert.Hausdorff.Ref

end
-- ==== Proof.KerOps.lean ====
/-
  The kernel body's non-pointwise operations, read at an index at the ideal values: a row or column reduction of a
  matrix is the sum, the smallest or the largest entry of that row or column; the matrix product of `x` and `y`
  contracted over their second axes is, at `(n, m)`, the inner product of row `n` of `x` and row `m` of `y`; the
  keepdims column forms of a vector are re-indexings.
-/
import proofs.«132896_j44796508897916_2_alg».proof.KernelIdeal
import proofs.«132896_j44796508897916_2_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.Hausdorff.Ker

open Idealize.ShloMosaic Idealize.ShloMosaic.ValueIdx Cert.Hausdorff

/-! ## The start values of the extrema -/

theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-! ## A reduced index with the dropped coordinate put back -/

/-- Dropping the column axis: row `n` with column `k` put back is `(n, k)`. -/
theorem lift_row {a b : ℕ} (h : (⟨2, ![a, b]⟩ : Shape).Reduces [1] (⟨1, ![a]⟩ : Shape)) (n : Fin a)
    (k : Fin ((⟨2, ![a, b]⟩ : Shape).size 1)) : h.lift (ix1 n) k = ix2 n (⟨k.val, k.isLt⟩ : Fin b) := by
  funext c; apply Fin.ext
  fin_cases c <;> rfl

/-- Dropping the row axis: column `m` with row `k` put back is `(k, m)`. -/
theorem lift_col {a b : ℕ} (h : (⟨2, ![a, b]⟩ : Shape).Reduces [0] (⟨1, ![b]⟩ : Shape)) (m : Fin b)
    (k : Fin ((⟨2, ![a, b]⟩ : Shape).size 0)) : h.lift (ix1 m) k = ix2 (⟨k.val, k.isLt⟩ : Fin a) m := by
  funext c; apply Fin.ext
  fin_cases c <;> rfl

/-! ## Row sums -/

/-- The sum along the rows of a matrix, at row `n`. -/
theorem rowSum {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (n : Fin a) :
    multiReduction .add [1] ⟨1, ![a]⟩ src 0x00000000#32 h hφ hacc (ix1 n) = ∑ k : Fin b, src (ix2 n k) := by
  refine (Ideal.multiReduction_add_single src _ h hφ hacc (ix1 n)).trans ?_
  show ∑ k : Fin b, src (h.lift (ix1 n) k) = _
  exact Finset.sum_congr rfl fun k _ => congrArg src (lift_row h n k)

/-! ## Row and column extrema -/

/-- The smallest entry of row `n`. -/
theorem rowMin {a b : ℕ} (src : FVec Ideal ⟨2, ![a, b]⟩ .f32) (h : (⟨2, ![a, b]⟩ : Shape).Reduces [1] (⟨1, ![a]⟩ : Shape))
    (hφ : FKind.Formats .f32) (hacc : (0x7F800000#32 : BitVec 32) = FKind.minimumf.neutral .f32 hφ) (n : Fin a) :
    multiReduction .minimumf [1] ⟨1, ![a]⟩ src 0x7F800000#32 h hφ hacc (ix1 n) = bigMin fun k : Fin b => src (ix2 n k) := by
  rw [multiReduction_minimumf_eq_fold, h.fold_filter_drop_single]
  show (Finset.univ : Finset (Fin b)).fold min (Ideal.ofBits .f32 0x7F800000#32) (fun k => src (h.lift (ix1 n) k)) = _
  rw [ofBits_posInf]
  unfold bigMin
  exact congrArg (fun f => (Finset.univ : Finset (Fin b)).fold min ⊤ f) (funext fun k => congrArg src (lift_row h n k))

/-- The smallest entry of column `m`. -/
theorem colMin {a b : ℕ} (src : FVec Ideal ⟨2, ![a, b]⟩ .f32) (h : (⟨2, ![a, b]⟩ : Shape).Reduces [0] (⟨1, ![b]⟩ : Shape))
    (hφ : FKind.Formats .f32) (hacc : (0x7F800000#32 : BitVec 32) = FKind.minimumf.neutral .f32 hφ) (m : Fin b) :
    multiReduction .minimumf [0] ⟨1, ![b]⟩ src 0x7F800000#32 h hφ hacc (ix1 m) = bigMin fun k : Fin a => src (ix2 k m) := by
  rw [multiReduction_minimumf_eq_fold, h.fold_filter_drop_single]
  show (Finset.univ : Finset (Fin a)).fold min (Ideal.ofBits .f32 0x7F800000#32) (fun k => src (h.lift (ix1 m) k)) = _
  rw [ofBits_posInf]
  unfold bigMin
  exact congrArg (fun f => (Finset.univ : Finset (Fin a)).fold min ⊤ f) (funext fun k => congrArg src (lift_col h m k))

/-- The largest entry of row `n`. -/
theorem rowMax {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (n : Fin a) :
    multiReduction .maximumf [1] ⟨1, ![a]⟩ src 0xFF800000#32 h hφ hacc (ix1 n) = bigMax fun k : Fin b => src (ix2 n k) := by
  rw [multiReduction_maximumf_eq_fold, h.fold_filter_drop_single]
  show (Finset.univ : Finset (Fin b)).fold max (Ideal.ofBits .f32 0xFF800000#32) (fun k => src (h.lift (ix1 n) k)) = _
  rw [ofBits_negInf]
  unfold bigMax
  exact congrArg (fun f => (Finset.univ : Finset (Fin b)).fold max ⊥ f) (funext fun k => congrArg src (lift_row h n k))

/-- The largest entry of column `m`. -/
theorem colMax {a b : ℕ} (src : FVec Ideal ⟨2, ![a, b]⟩ .f32) (h : (⟨2, ![a, b]⟩ : Shape).Reduces [0] (⟨1, ![b]⟩ : Shape))
    (hφ : FKind.Formats .f32) (hacc : (0xFF800000#32 : BitVec 32) = FKind.maximumf.neutral .f32 hφ) (m : Fin b) :
    multiReduction .maximumf [0] ⟨1, ![b]⟩ src 0xFF800000#32 h hφ hacc (ix1 m) = bigMax fun k : Fin a => src (ix2 k m) := by
  rw [multiReduction_maximumf_eq_fold, h.fold_filter_drop_single]
  show (Finset.univ : Finset (Fin a)).fold max (Ideal.ofBits .f32 0xFF800000#32) (fun k => src (h.lift (ix1 m) k)) = _
  rw [ofBits_negInf]
  unfold bigMax
  exact congrArg (fun f => (Finset.univ : Finset (Fin a)).fold max ⊥ f) (funext fun k => congrArg src (lift_col h m k))

/-! ## The keepdims column forms -/

/-- A vector as a column: entry `(n, 0)` is entry `n`. -/
theorem shapeCast_a_a1_apply {a : ℕ} {α : Type} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) :=
  shapeCast_apply x h _ _ (by
    have hu : u.val = 0 := by omega
    rw [Shape.rowMajor_val_two, Shape.rowMajor_val_one]
    show n.val = n.val * 1 + u.val
    rw [hu, Nat.mul_one, Nat.add_zero])

/-- A column broadcast along the rows: entry `(n, m)` is the column's entry `(n, 0)`. -/
theorem broadcastTo_a1_ab_apply {a b : ℕ} {α : Type} (ha : a ≠ 1) (v : (⟨2, ![a, 1]⟩ : Shape).Idx → α)
    (h : (⟨2, ![a, 1]⟩ : Shape).Broadcasts ⟨2, ![a, b]⟩) (n : Fin a) (m : Fin b) :
    broadcastTo ⟨2, ![a, b]⟩ v h (ix2 n m) = v (ix2 n (0 : Fin 1)) := by
  refine broadcastTo_apply v h (ix2 n m) (ix2 n (0 : Fin 1)) fun ax => ?_
  match ax with
  | ⟨0, _⟩ =>
    show n.val = if a = 1 then 0 else n.val
    rw [if_neg ha]
  | ⟨1, _⟩ => rfl

end Cert.Hausdorff.Ker

end
-- ==== Proof.KerPayload.lean ====
/-
  The kernel body's stored value, read at an index at the ideal values.

  With `x`, `y` the two loaded `[1024, 1024]` blocks (points as rows), the body forms the squared norms as columns,
  the matrix `c(n, m) = ‖y m‖² − 2·⟨x n, y m⟩`, the forward value `max_n (min_m c(n, m) + ‖x n‖²)`, the backward value
  `max_m min_n (‖x n‖² + c(n, m))`, and stores the root of the larger of the two clamped at zero in every lane.
  Each stage is named here (the printed payload is their composition, by unfolding) and read at an index; together they
  say every stored lane is `kerPair` of the two blocks.
-/
import proofs.«132896_j44796508897916_2_alg».proof.Proof.Gen.KernelIdeal.Skeleton
import proofs.«132896_j44796508897916_2_alg».proof.Proof.KerOps

noncomputable section

open scoped BigOperators

namespace Cert.Hausdorff.Ker

open Idealize.ShloMosaic Idealize.ShloMosaic.ValueIdx Cert.Hausdorff
open Cert.KernelIdeal Cert.KernelIdeal.Facts₀

variable [Cert.KernelIdeal.Facts]

/-- The contraction of the two blocks over their second axes. -/
abbrev DD : DotDims S1024x1024 S1024x1024 S1024x1024 := dot_S1024x1024_S1024x1024_S1024x1024_1_1_0_0_n_n

/-- The factor of the cross term. -/
abbrev two : EReal := Ideal.ofBits .f32 0x40000000#32

/-! ## The matrix product at an index -/

theorem lhs0 (j : S1024x1024.Idx) (q : DD.contr.Idx) : (DD.lhsIdx j q 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl
theorem lhs1 (j : S1024x1024.Idx) (q : DD.contr.Idx) : (DD.lhsIdx j q 1).val = (q ⟨0, by decide⟩).val :=
  DD.lhsIdx_val_of_single rfl j q
theorem rhs0 (j : S1024x1024.Idx) (q : DD.contr.Idx) : (DD.rhsIdx j q 0).val = (j 1).val := by
  unfold DotDims.rhsIdx
  rw [dif_neg (show ¬(0 : Fin S1024x1024.rank) ∈ DD.rhsBatch by decide), dif_pos (show (0 : Fin S1024x1024.rank) ∈ DD.rhsNonContracting by decide)]
  rfl
theorem rhs1 (j : S1024x1024.Idx) (q : DD.contr.Idx) : (DD.rhsIdx j q 1).val = (q ⟨0, by decide⟩).val :=
  DD.rhsIdx_val_of_single rfl j q

/-- The product into a zero accumulator, at `(n, m)`: the inner product of row `n` of the left operand and row `m` of
    the right one. -/
theorem matmul_rows (x y : FVec Ideal S1024x1024 .bf16) (n m : Fin 1024) :
    matmul DD none x y (constant S1024x1024 .f32 0x00000000#32) (ix2 n m) = ∑ k : Fin 1024, x (ix2 n k) * y (ix2 m k) := by
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 n m) ((contrEquiv1 DD 1024 rfl rfl).symm k) = ix2 n k := funext fun a => Fin.ext (by
    match a with
    | ⟨0, _⟩ => exact lhs0 _ _
    | ⟨1, _⟩ => exact (lhs1 _ _).trans hk)
  have er : DD.rhsIdx (ix2 n m) ((contrEquiv1 DD 1024 rfl rfl).symm k) = ix2 m k := funext fun a => Fin.ext (by
    match a with
    | ⟨0, _⟩ => exact rhs0 _ _
    | ⟨1, _⟩ => exact (rhs1 _ _).trans hk)
  rw [el, er]

/-! ## The stages of the body -/

/-- The squared norms of the rows, as a column. -/
def sqCol (x : FVec Ideal S1024x1024 .f32) : FVec Ideal S1024x1 .f32 :=
  shapeCast S1024x1 (multiReduction .add [1] S1024 (mulf x x) 0x00000000#32 reduces_S1024x1024_S1024 (.inl rfl) rfl) shapeCasts_S1024_S1024x1

/-- `c(n, m) = ‖y m‖² − 2·⟨x n, y m⟩`. -/
def cmat (x y : FVec Ideal S1024x1024 .f32) : FVec Ideal S1024x1024 .f32 :=
  subf (broadcastTo S1024x1024 (transpose S1x1024 [1, 0] (sqCol y) transposes_S1024x1_p1_0_S1x1024) broadcasts_S1x1024_S1024x1024)
    (mulf (broadcast S1024x1024 (Scalar.ofBits .f32 0x40000000#32))
      (matmul dot_S1024x1024_S1024x1024_S1024x1024_1_1_0_0_n_n none (truncf .bf16 x bitsLt_bf16_f32) (truncf .bf16 y bitsLt_bf16_f32) (constant S1024x1024 .f32 0x00000000#32)))

/-- The forward value `max_n (min_m c(n, m) + ‖x n‖²)`. -/
def fwd (x y : FVec Ideal S1024x1024 .f32) : FVec Ideal S1x1 .f32 :=
  shapeCast S1x1 (multiReduction .maximumf [0] S1
    (addf (shapeCast S1024x1 (multiReduction .minimumf [1] S1024 (cmat x y) 0x7F800000#32 reduces_S1024x1024_S1024 (.inl rfl) rfl) shapeCasts_S1024_S1024x1) (sqCol x))
    0xFF800000#32 reduces_S1024x1_S1 (.inl rfl) rfl) shapeCasts_S1_S1x1

/-- The backward value `max_m min_n (‖x n‖² + c(n, m))`. -/
def bwd (x y : FVec Ideal S1024x1024 .f32) : FVec Ideal S1x1 .f32 :=
  shapeCast S1x1 (multiReduction .maximumf [1] S1
    (shapeCast S1x1024 (multiReduction .minimumf [0] S1024
      (addf (broadcastTo S1024x1024 (sqCol x) broadcasts_S1024x1_S1024x1024) (cmat x y)) 0x7F800000#32 reduces_S1024x1024_S1024_2 (.inl rfl) rfl) shapeCasts_S1024_S1x1024)
    0xFF800000#32 reduces_S1x1024_S1 (.inl rfl) rfl) shapeCasts_S1_S1x1

/-- The stored value: the root of the larger of the two, clamped at zero, in every lane. -/
def lanes (x y : FVec Ideal S1024x1024 .f32) : FVec Ideal S1x1x128 .f32 :=
  shapeCast S1x1x128 (broadcast S1x128 (extractAt ![0, 0]
    (sqrt (maximumf (maximumf (fwd x y) (bwd x y)) (broadcast S1x1 (Scalar.ofBits .f32 0x00000000#32)))) inpos_S1x1_p0_0)) shapeCasts_S1x128_S1x1x128

/-- The printed payload is the composition of the stages. -/
theorem pay_eq_lanes (X Y : Vec Ideal S1x1024x1024 .f32) :
    Gen.k0_pay1 (F := Ideal) X Y = lanes (shapeCast S1024x1024 X shapeCasts_S1x1024x1024_S1024x1024) (shapeCast S1024x1024 Y shapeCasts_S1x1024x1024_S1024x1024) := rfl

/-! ## The stages at an index -/

/-- The rows of a block as points. -/
abbrev pts (x : FVec Ideal S1024x1024 .f32) : Fin 1024 → Fin 1024 → EReal := fun n k => x (ix2 n k)

theorem sqCol_apply (x : FVec Ideal S1024x1024 .f32) (n : Fin 1024) (u : Fin 1) : sqCol x (ix2 n u) = sqNorm (pts x) n := by
  unfold sqCol
  refine (shapeCast_a_a1_apply _ _ n u).trans ?_
  exact rowSum (mulf x x) _ _ _ n

theorem cmat_apply (x y : FVec Ideal S1024x1024 .f32) (n m : Fin 1024) :
    cmat x y (ix2 n m) = sqNorm (pts y) m - two * cross (pts x) (pts y) n m := by
  unfold cmat
  have e1 : broadcastTo S1024x1024 (transpose S1x1024 [1, 0] (sqCol y) transposes_S1024x1_p1_0_S1x1024) broadcasts_S1x1024_S1024x1024 (ix2 n m)
      = sqNorm (pts y) m :=
    (broadcastTo_1b_ab_apply _ _ n m).trans ((transpose_ix2_apply _ _ (0 : Fin 1) m).trans (sqCol_apply y m 0))
  have e2 : matmul dot_S1024x1024_S1024x1024_S1024x1024_1_1_0_0_n_n none (truncf .bf16 x bitsLt_bf16_f32) (truncf .bf16 y bitsLt_bf16_f32) (constant S1024x1024 .f32 0x00000000#32) (ix2 n m)
      = cross (pts x) (pts y) n m := matmul_rows _ _ n m
  exact congrArg₂ (fun a b : EReal => a - two * b) e1 e2

theorem fwd_apply (x y : FVec Ideal S1024x1024 .f32) (u w : Fin 1) :
    fwd x y (ix2 u w) = bigMax fun n : Fin 1024 => (bigMin fun m : Fin 1024 => sqNorm (pts y) m - two * cross (pts x) (pts y) n m) + sqNorm (pts x) n := by
  unfold fwd
  refine (shapeCast_a_1a_apply _ _ u w).trans ?_
  refine (colMax _ _ _ _ w).trans ?_
  refine congrArg bigMax (funext fun n => ?_)
  refine (addf_apply _ _ (ix2 n w)).trans ?_
  have e1 : shapeCast S1024x1 (multiReduction .minimumf [1] S1024 (cmat x y) 0x7F800000#32 reduces_S1024x1024_S1024 (.inl rfl) rfl) shapeCasts_S1024_S1024x1 (ix2 n w)
      = bigMin fun m : Fin 1024 => sqNorm (pts y) m - two * cross (pts x) (pts y) n m :=
    (shapeCast_a_a1_apply _ _ n w).trans ((rowMin (cmat x y) _ _ _ n).trans (congrArg bigMin (funext fun m => cmat_apply x y n m)))
  exact congrArg₂ (· + ·) e1 (sqCol_apply x n w)

theorem bwd_apply (x y : FVec Ideal S1024x1024 .f32) (u w : Fin 1) :
    bwd x y (ix2 u w) = bigMax fun m : Fin 1024 => bigMin fun n : Fin 1024 => sqNorm (pts x) n + (sqNorm (pts y) m - two * cross (pts x) (pts y) n m) := by
  unfold bwd
  refine (shapeCast_a_1a_apply _ _ u w).trans ?_
  refine (rowMax _ _ _ _ w).trans ?_
  refine congrArg bigMax (funext fun m => ?_)
  refine (shapeCast_a_1a_apply _ _ w m).trans ?_
  refine (colMin _ _ _ _ m).trans ?_
  refine congrArg bigMin (funext fun n => ?_)
  have e1 : broadcastTo S1024x1024 (sqCol x) broadcasts_S1024x1_S1024x1024 (ix2 n m) = sqNorm (pts x) n :=
    (broadcastTo_a1_ab_apply (by decide) _ _ n m).trans (sqCol_apply x n 0)
  exact congrArg₂ (fun a b : EReal => a + b) e1 (cmat_apply x y n m)

/-- The entry at the origin of a `[1, 1]` vector. -/
theorem extractAt00 {α : Type} (v : S1x1.Idx → α) (h : ∀ a, (![0, 0] : Fin 2 → Nat) a < S1x1.size a) :
    extractAt ![0, 0] v h = v (ix2 (0 : Fin 1) (0 : Fin 1)) := by
  unfold extractAt
  exact congrArg v (funext fun a => Fin.ext (by match a with | ⟨0, _⟩ => rfl | ⟨1, _⟩ => rfl))

/-- The root of a vector, entry by entry. -/
theorem sqrt_at {s : Shape} (v : FVec Ideal s .f32) (i : s.Idx) : sqrt v i = Ideal.sqrt (v i) := rfl

theorem lanes_apply (x y : FVec Ideal S1024x1024 .f32) (u w : Fin 1) (l : Fin 128) :
    lanes x y (ix3 u w l) = kerPair two (pts x) (pts y) := by
  unfold lanes
  refine (shapeCast_ab_1ab_apply _ _ u w l).trans ?_
  refine (broadcast_apply _ (ix2 w l)).trans ?_
  refine (extractAt00 _ _).trans ?_
  refine (sqrt_at _ _).trans ?_
  unfold kerPair
  refine congrArg Ideal.sqrt ?_
  refine (maximumf_apply _ _ _).trans ?_
  refine congrArg₂ max ?_ ?_
  · refine (maximumf_apply _ _ _).trans ?_
    exact congrArg₂ max (fwd_apply x y 0 0) (bwd_apply x y 0 0)
  · refine (broadcast_apply _ (ix2 (0 : Fin 1) (0 : Fin 1))).trans ?_
    exact Ideal.ofBits_zero_f32

/-- Every stored lane is `kerPair` of the two loaded blocks, their rows the points. -/
theorem pay_apply (X Y : Vec Ideal S1x1024x1024 .f32) (u w : Fin 1) (l : Fin 128) :
    Gen.k0_pay1 (F := Ideal) X Y (ix3 u w l) = kerPair two (fun n k => X (ix3 (0 : Fin 1) n k)) (fun m k => Y (ix3 (0 : Fin 1) m k)) := by
  rw [pay_eq_lanes, lanes_apply]
  have hx : pts (shapeCast S1024x1024 X shapeCasts_S1x1024x1024_S1024x1024) = fun n k => X (ix3 (0 : Fin 1) n k) :=
    funext fun n => funext fun k => shapeCast_1ab_ab_apply X _ n k
  have hy : pts (shapeCast S1024x1024 Y shapeCasts_S1x1024x1024_S1024x1024) = fun m k => Y (ix3 (0 : Fin 1) m k) :=
    funext fun m => funext fun k => shapeCast_1ab_ab_apply Y _ m k
  rw [hx, hy]

end Cert.Hausdorff.Ker

end
-- ==== Proof.KerBlocks.lean ====
/-
  From the blocks to the output array.

  Grid point `t` stages block `t` of each of the two `[24, 1024, 1024]` arrays — all 1024 points of pair `t` — and
  writes back block `t` of the `[24, 1, 128]` output, every lane of which holds `kerPair` of the two staged blocks.
  The 24 output blocks tile the output array, so after the run the array holds, at `(p, ·, ·)`, `kerPair` of pair `p`
  of the two arrays as the region finds them.
-/
import proofs.«132896_j44796508897916_2_alg».proof.Proof.Gen.KernelIdeal.Frame
import proofs.«132896_j44796508897916_2_alg».proof.Proof.KerPayload
import Idealize.ShloMosaic.Lib.Pipeline.Value

set_option maxRecDepth 16384

noncomputable section

open scoped BigOperators

namespace Cert.Hausdorff.Ker

open Idealize.ShloMosaic Idealize.ShloMosaic.TcCoe Idealize.ShloMosaic.ValueIdx Idealize.SL.Sem Cert.Hausdorff
open Idealize.ShloMosaic.Pipeline (Dat)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

/-- Pair `p` of a `[24, 1024, 1024]` array: its 1024 points. -/
def pairOf (a : S24x1024x1024.Idx → EReal) (p : Fin 24) : Fin 1024 → Fin 1024 → EReal := fun n k => a (ix3 p n k)

/-- What the output array ends holding: at `(p, ·, ·)` the value of pair `p`. -/
def outArr (a0 a1 : S24x1024x1024.Idx → EReal) : S24x1x128.Idx → EReal := fun i =>
  kerPair two (pairOf a0 (⟨(i 0).val, (i 0).isLt⟩ : Fin 24)) (pairOf a1 (⟨(i 0).val, (i 0).isLt⟩ : Fin 24))

/-- Every entry of a stored block is `kerPair` of the two staged blocks. -/
theorem block_value (X Y : Vec Ideal S1x1024x1024 .f32) (j : S1x1x128.Idx) :
    k0_pay1 (F := Ideal) X Y j = kerPair two (fun n k => X (ix3 (0 : Fin 1) n k)) (fun p k => Y (ix3 (0 : Fin 1) p k)) := by
  obtain ⟨u, w, l, rfl⟩ : ∃ (u : Fin 1) (w : Fin 1) (l : Fin 128), j = ix3 u w l := ⟨j 0, j 1, j 2, eq_ix3 j⟩
  exact pay_apply X Y u w l

/-- The printed index maps, decided over the grid: the three windows move together along the pair axis and stay at the
    origin of the other two. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 24 ∧ win0_2.index t (1 : Fin 3) = 0 ∧ win0_2.index t (2 : Fin 3) = 0 :=
  (by decide +kernel : ∀ t : Fin grid0.N, _)

/-- Every pair is some point's. -/
theorem idx_onto : ∀ q : Fin 24, ∃ t : Fin cfg0.N, win0_2.index t = ![q.val, 0, 0] :=
  (by decide +kernel : ∀ q : Fin 24, ∃ t : Fin grid0.N, win0_2.index t = ![q.val, 0, 0])

/-- Block `t` of the first array, read at point `n`, coordinate `k`: pair `t`'s point of the array as the region finds it. -/
theorem read0 (c : Dev nD) (t : Fin cfg0.N) (n k : Fin 1024) :
    iblk m c 0 t (ix3 (0 : Fin 1) n k) = V m c main_v0 (ix3 (⟨win0_2.index t (0 : Fin 3), (idx_facts t).2.2.2.2.2.2.1⟩ : Fin 24) n k) := by
  obtain ⟨e0, e1, e2, -⟩ := idx_facts t
  show V m c main_v0 (((cfg0.win 0).blk t).view.emb (ix3 (0 : Fin 1) n k)) = _
  refine congrArg (V m c main_v0) (funext fun a => Fin.ext ?_)
  match a with
  | ⟨0, _⟩ => show win0_0.index t (0 : Fin 3) * 1 + 1 * 0 = win0_2.index t (0 : Fin 3); omega
  | ⟨1, _⟩ => show win0_0.index t (1 : Fin 3) * 1024 + 1 * n.val = n.val; omega
  | ⟨2, _⟩ => show win0_0.index t (2 : Fin 3) * 1024 + 1 * k.val = k.val; omega

/-- The same for the second array. -/
theorem read1 (c : Dev nD) (t : Fin cfg0.N) (n k : Fin 1024) :
    iblk m c 1 t (ix3 (0 : Fin 1) n k) = V m c main_v1 (ix3 (⟨win0_2.index t (0 : Fin 3), (idx_facts t).2.2.2.2.2.2.1⟩ : Fin 24) n k) := by
  obtain ⟨-, -, -, e3, e4, e5, -⟩ := idx_facts t
  show V m c main_v1 (((cfg0.win 1).blk t).view.emb (ix3 (0 : Fin 1) n k)) = _
  refine congrArg (V m c main_v1) (funext fun a => Fin.ext ?_)
  match a with
  | ⟨0, _⟩ => show win0_1.index t (0 : Fin 3) * 1 + 1 * 0 = win0_2.index t (0 : Fin 3); omega
  | ⟨1, _⟩ => show win0_1.index t (1 : Fin 3) * 1024 + 1 * n.val = n.val; omega
  | ⟨2, _⟩ => show win0_1.index t (2 : Fin 3) * 1024 + 1 * k.val = k.val; omega

/-- WHAT POINT `t` WRITES BACK is block `t` of `outArr` of the two arrays as the region finds them. -/
theorem flushed_eq (c : Dev nD) (t : Fin cfg0.N) :
    (dats m 0 c).flushed 2 t = ((cfg0.win 2).blk t).view.read (Elt Ideal) (outArr (V m c main_v0) (V m c main_v1)) := by
  show (cfg0.win 2).cut (grid0.coords t) ((dats m 0 c).after 2 t) = _
  rw [after0_2]
  unfold out0_2
  rw [View.canon_unit_zero hz3]
  simp only [View.ld_unit_zero (S := S1x1024x1024) hz3]
  have e6 : win0_2.index t (0 : Fin 3) < 24 := (idx_facts t).2.2.2.2.2.2.1
  funext j
  show k0_pay1 (iblk m c 0 t) (iblk m c 1 t) j = outArr (V m c main_v0) (V m c main_v1) (((cfg0.win 2).blk t).view.emb j)
  refine (block_value (iblk m c 0 t) (iblk m c 1 t) j).trans ?_
  have hp : (⟨(((cfg0.win 2).blk t).view.emb j 0).val, (((cfg0.win 2).blk t).view.emb j 0).isLt⟩ : Fin 24) = ⟨win0_2.index t (0 : Fin 3), e6⟩ := Fin.ext (by
    show win0_2.index t (0 : Fin 3) * 1 + 1 * (j 0).val = win0_2.index t (0 : Fin 3)
    have hj : (j 0).val < 1 := (j 0).isLt
    omega)
  unfold outArr
  rw [hp]
  exact congrArg₂ (kerPair two) (funext fun n => funext fun k => read0 m c t n k) (funext fun p => funext fun k => read1 m c t p k)

/-- An index of the output array is in point `t`'s block iff each coordinate is in the block's range on its axis. -/
theorem mem_blk (t : Fin cfg0.N) (i : S24x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- The 24 output blocks cover the output array: index `(p, ·, ·)` is in the block of the point whose pair is `p`. -/
theorem cover (i : S24x1x128.Idx) : ∃ t : Fin cfg0.N, (cfg0.win 2).flush t = true ∧ i ∈ ((cfg0.win 2).blk t).view.set := by
  have hi0 : (i 0).val < 24 := (i 0).isLt
  have hi1 : (i 1).val < 1 := (i 1).isLt
  have hi2 : (i 2).val < 128 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the run. -/
theorem final_arr (c : Dev nD) : (dats m 0 c).arrAt 2 cfg0.N = outArr (V m c main_v0) (V m c main_v1) :=
  (dats m 0 c).arrAt_eq_of_cover 2 _ (fun t _ => flushed_eq m c t) cover

end Cert.Hausdorff.Ker

end
-- ==== Proof.Algebra.lean ====
/-
  The two arrangements of the symmetric Hausdorff distance agree.

  The extended square root is monotone on all of EReal, hence so is t ↦ sqrt (max t 0).  A monotone map of a linear
  order commutes with binary max and min, and with the largest and smallest value over a nonempty finite index.
  Adding a fixed value on the right is monotone on EReal for every value, so it too moves inside a smallest value over
  a nonempty index.  Pointwise the two groupings of the squared distance are equal by commutativity and associativity
  of addition alone.
-/
import proofs.«132896_j44796508897916_2_alg».proof.Proof.Spec

noncomputable section

open scoped BigOperators

namespace Cert.Hausdorff

open Idealize.ShloMosaic

namespace Alg

/-- The extended square root is monotone on all of EReal. -/
theorem sqrt_mono : Monotone Ideal.sqrt := by
  intro a b hab
  induction a using EReal.rec with
  | bot => simp
  | top =>
    have hb : b = ⊤ := top_le_iff.mp hab
    subst hb
    exact le_rfl
  | coe r =>
    induction b using EReal.rec with
    | bot => exact absurd hab (by simp)
    | top => simp
    | coe s =>
      have hrs : r ≤ s := EReal.coe_le_coe_iff.mp hab
      simp only [Ideal.sqrt_coe]
      by_cases hr : r < 0
      · simp [hr]
      · have hs : ¬ s < 0 := by
          intro hs
          exact hr (lt_of_le_of_lt hrs hs)
        simp only [hr, hs, if_false]
        exact EReal.coe_le_coe_iff.mpr (Real.sqrt_le_sqrt hrs)

/-- The clamped root t ↦ sqrt (max t 0) is monotone. -/
theorem clampSqrt_mono : Monotone (fun t : EReal => Ideal.sqrt (max t 0)) :=
  fun _ _ h => sqrt_mono (max_le_max h le_rfl)

/-- The smallest value is below every value. -/
theorem bigMin_le {n : ℕ} (f : Fin n → EReal) (i : Fin n) : bigMin f ≤ f i := by
  have h : bigMin f ≤ (Finset.univ : Finset (Fin n)).fold min ⊤ f := le_rfl
  rw [Finset.le_fold_min] at h
  exact h.2 i (Finset.mem_univ i)

/-- Every value is below the largest value. -/
theorem le_bigMax {n : ℕ} (f : Fin n → EReal) (i : Fin n) : f i ≤ bigMax f := by
  have h : (Finset.univ : Finset (Fin n)).fold max ⊥ f ≤ bigMax f := le_rfl
  rw [Finset.fold_max_le] at h
  exact h.2 i (Finset.mem_univ i)

/-- Over a nonempty index the smallest value is attained (up to ≤). -/
theorem exists_le_bigMin {n : ℕ} (hn : 0 < n) (f : Fin n → EReal) : ∃ i, f i ≤ bigMin f := by
  have h : (Finset.univ : Finset (Fin n)).fold min ⊤ f ≤ bigMin f := le_rfl
  rw [Finset.fold_min_le] at h
  rcases h with h | ⟨i, _, hi⟩
  · exact ⟨⟨0, hn⟩, le_trans le_top h⟩
  · exact ⟨i, hi⟩

/-- Over a nonempty index the largest value is attained (up to ≤). -/
theorem exists_bigMax_le {n : ℕ} (hn : 0 < n) (f : Fin n → EReal) : ∃ i, bigMax f ≤ f i := by
  have h : bigMax f ≤ (Finset.univ : Finset (Fin n)).fold max ⊥ f := le_rfl
  rw [Finset.le_fold_max] at h
  rcases h with h | ⟨i, _, hi⟩
  · exact ⟨⟨0, hn⟩, le_trans h bot_le⟩
  · exact ⟨i, hi⟩

/-- A monotone map commutes with the smallest value over a nonempty index. -/
theorem map_bigMin {n : ℕ} (hn : 0 < n) {g : EReal → EReal} (hg : Monotone g) (f : Fin n → EReal) :
    g (bigMin f) = bigMin (fun i => g (f i)) := by
  apply le_antisymm
  · show g (bigMin f) ≤ (Finset.univ : Finset (Fin n)).fold min ⊤ (fun i => g (f i))
    rw [Finset.le_fold_min]
    exact ⟨le_top, fun i _ => hg (bigMin_le f i)⟩
  · obtain ⟨i, hi⟩ := exists_le_bigMin hn f
    exact le_trans (bigMin_le (fun i => g (f i)) i) (hg hi)

/-- A monotone map commutes with the largest value over a nonempty index. -/
theorem map_bigMax {n : ℕ} (hn : 0 < n) {g : EReal → EReal} (hg : Monotone g) (f : Fin n → EReal) :
    g (bigMax f) = bigMax (fun i => g (f i)) := by
  apply le_antisymm
  · obtain ⟨i, hi⟩ := exists_bigMax_le hn f
    exact le_trans (hg hi) (le_bigMax (fun i => g (f i)) i)
  · show (Finset.univ : Finset (Fin n)).fold max ⊥ (fun i => g (f i)) ≤ g (bigMax f)
    rw [Finset.fold_max_le]
    exact ⟨bot_le, fun i _ => hg (le_bigMax f i)⟩

/-- Adding a fixed value on the right is monotone, for every value. -/
theorem add_right_mono (a : EReal) : Monotone (fun t : EReal => t + a) :=
  fun _ _ h => add_le_add h le_rfl

/-- Adding a fixed value on the left is monotone, for every value. -/
theorem add_left_mono' (a : EReal) : Monotone (fun t : EReal => a + t) :=
  fun _ _ h => add_le_add le_rfl h

/-- (b − c) + a = (a + b) − c, by commutativity and associativity alone. -/
theorem sub_add_regroup (a b c : EReal) : (b - c) + a = (a + b) - c := by
  rw [sub_eq_add_neg, sub_eq_add_neg, add_comm (b + -c) a, add_assoc]

/-- a + (b − c) = (a + b) − c, by associativity alone. -/
theorem add_sub_regroup (a b c : EReal) : a + (b - c) = (a + b) - c := by
  rw [sub_eq_add_neg, sub_eq_add_neg, add_assoc]

end Alg

open Alg

/-- One root at the end equals roots first. -/
theorem kerPair_eq_refPair {N M D : ℕ} (hN : 0 < N) (hM : 0 < M) (two : EReal)
    (x : Fin N → Fin D → EReal) (y : Fin M → Fin D → EReal) : kerPair two x y = refPair two x y := by
  have hfwd : ∀ n : Fin N,
      Ideal.sqrt (max ((bigMin fun m => sqNorm y m - two * cross x y n m) + sqNorm x n) 0)
        = bigMin fun m => dist two x y n m := by
    intro n
    have h1 : (bigMin fun m => sqNorm y m - two * cross x y n m) + sqNorm x n
        = bigMin fun m => (sqNorm y m - two * cross x y n m) + sqNorm x n :=
      map_bigMin hM (add_right_mono (sqNorm x n)) (fun m => sqNorm y m - two * cross x y n m)
    rw [h1]
    have h2 := map_bigMin hM clampSqrt_mono (fun m => (sqNorm y m - two * cross x y n m) + sqNorm x n)
    refine h2.trans ?_
    congr 1
    funext m
    show Ideal.sqrt (max ((sqNorm y m - two * cross x y n m) + sqNorm x n) 0) = dist two x y n m
    rw [sub_add_regroup]
    rfl
  have hbwd : ∀ m : Fin M,
      Ideal.sqrt (max (bigMin fun n => sqNorm x n + (sqNorm y m - two * cross x y n m)) 0)
        = bigMin fun n => dist two x y n m := by
    intro m
    have h2 := map_bigMin hN clampSqrt_mono (fun n => sqNorm x n + (sqNorm y m - two * cross x y n m))
    refine h2.trans ?_
    congr 1
    funext n
    show Ideal.sqrt (max (sqNorm x n + (sqNorm y m - two * cross x y n m)) 0) = dist two x y n m
    rw [add_sub_regroup]
    rfl
  unfold kerPair refPair
  have hmax := Monotone.map_max clampSqrt_mono
    (a := bigMax fun n => (bigMin fun m => sqNorm y m - two * cross x y n m) + sqNorm x n)
    (b := bigMax fun m => bigMin fun n => sqNorm x n + (sqNorm y m - two * cross x y n m))
  refine hmax.trans ?_
  have hA := map_bigMax hN clampSqrt_mono
    (fun n => (bigMin fun m => sqNorm y m - two * cross x y n m) + sqNorm x n)
  have hB := map_bigMax hM clampSqrt_mono
    (fun m => bigMin fun n => sqNorm x n + (sqNorm y m - two * cross x y n m))
  rw [hA, hB]
  congr 2
  · funext n
    exact hfwd n
  · funext m
    exact hbwd m

end Cert.Hausdorff

end
-- ==== Proof.KerTail.lean ====
/-
  The kernel program's result.

  Before the region the two `[8, 3, 1024, 1024]` arguments are viewed as `[24, 1024, 1024]`: pair `3·b + c` of the
  view is pair `(b, c)` of the argument.  After the region the program takes lane `(p, 0, 0)` of the `[24, 1, 128]`
  output for each pair `p`, sums the 24 values from zero and divides by 24.  With the output array read off the blocks
  this is zero plus the sum over `(b, c)` of the pairs' Hausdorff distances, divided by 24 — the specification's
  `total`, by the equality of the two arrangements.
-/
import proofs.«132896_j44796508897916_2_alg».proof.Proof.KerBlocks
import proofs.«132896_j44796508897916_2_alg».proof.Proof.Algebra
import Idealize.ShloMosaic.Lib.StableHlo.Run
import Idealize.ShloMosaic.Lib.Pipeline.Value

set_option maxRecDepth 16384

noncomputable section

open scoped BigOperators

namespace Cert.Hausdorff.Ker

open Idealize.ShloMosaic Idealize.ShloMosaic.TcCoe Idealize.ShloMosaic.ValueIdx Idealize.SL.Sem Idealize.ShloMosaic.StableHlo Cert.Hausdorff
open Idealize.ShloMosaic.Pipeline (Dat)
open Cert.KernelIdeal Cert.KernelIdeal.Gen

variable (m : (ℓ : Loc nD τ sig) → Buf (Elt Ideal) ℓ) (ρ : Dev nD → PrngReg)

/-! ## The arguments as the region finds them -/

/-- A `[8, 3, 1024, 1024]` array viewed as `[24, 1024, 1024]`. -/
abbrev asPairs (a : S8x3x1024x1024.Idx → EReal) : S24x1024x1024.Idx → EReal :=
  shapeCast S24x1024x1024 a Facts₀.shapeCasts_S8x3x1024x1024_S24x1024x1024

theorem V_v0 (c : Dev nD) : V m c main_v0 = asPairs (m ((c : Thread nD τ).loc main_arg0)) := by
  show StableHlo.after hostOps0 (fun b => m (c, b)) (Proc.devRef .tc main_v0) = _
  after_results
  rfl

theorem V_v1 (c : Dev nD) : V m c main_v1 = asPairs (m ((c : Thread nD τ).loc main_arg1)) := by
  show StableHlo.after hostOps0 (fun b => m (c, b)) (Proc.devRef .tc main_v1) = _
  after_results
  rfl

/-- Pair `(b, c)` as a row of the view. -/
def pairIdx (b : Fin 8) (c : Fin 3) : Fin 24 := ⟨b.val * 3 + c.val, by omega⟩

/-- Row `3·b + c` of the view is pair `(b, c)` of the argument. -/
theorem pairOf_asPairs (a : S8x3x1024x1024.Idx → EReal) (b : Fin 8) (c : Fin 3) :
    pairOf (asPairs a) (pairIdx b c) = slab a b c := by
  funext n k
  show shapeCast S24x1024x1024 a _ (ix3 (pairIdx b c) n k) = a (ix4 b c n k)
  refine shapeCast_apply a _ _ _ ?_
  rw [Shape.rowMajor_val_four, Shape.rowMajor_val_three]
  show ((b.val * 3 + c.val) * 1024 + n.val) * 1024 + k.val = ((b.val * 3 + c.val) * 1024 + n.val) * 1024 + k.val
  rfl

/-! ## Sums re-indexed -/

theorem sum_idx1 (y : S24.Idx → EReal) : ∑ j : S24.Idx, y j = ∑ p : Fin 24, y (ix1 p) := by
  symm
  refine Fintype.sum_bijective (fun p : Fin 24 => (ix1 p : S24.Idx)) ⟨fun p q h => ?_, fun j => ⟨j 0, (eq_ix1 j).symm⟩⟩ _ _ (fun _ => rfl)
  exact congrFun h 0

theorem sum_pairs (f : Fin 24 → EReal) : ∑ p : Fin 24, f p = ∑ b : Fin 8, ∑ c : Fin 3, f (pairIdx b c) := by
  rw [← Fintype.sum_prod_type' (fun b c => f (pairIdx b c))]
  symm
  refine Fintype.sum_bijective (fun x : Fin 8 × Fin 3 => pairIdx x.1 x.2) ⟨?_, ?_⟩ _ _ (fun _ => rfl)
  · rintro ⟨b, c⟩ ⟨b', c'⟩ h
    have hv : b.val * 3 + c.val = b'.val * 3 + c'.val := congrArg Fin.val h
    have h1 := c.isLt
    have h2 := c'.isLt
    exact Prod.ext (Fin.ext (by show b.val = b'.val; omega)) (Fin.ext (by show c.val = c'.val; omega))
  · intro p
    have hp := p.isLt
    exact ⟨(⟨p.val / 3, by omega⟩, ⟨p.val % 3, Nat.mod_lt _ (by decide)⟩), Fin.ext (by show p.val / 3 * 3 + p.val % 3 = p.val; omega)⟩

/-! ## The lines after the region -/

/-- Lane `(p, 0, 0)` of each pair, summed from zero, divided by 24. -/
def tailFn (O : S24x1x128.Idx → EReal) : S_.Idx → EReal :=
  Host.divf (F := Ideal)
    (Host.reduceAdd (F := Ideal) (shapeCast S24 (extractStridedSlice S24x1x1 ![0, 0, 0] O Facts₀.slices_S24x1x128_S24x1x1_0_0_0) Facts₀.shapeCasts_S24x1x1_S24)
      (constant (F := Ideal) S_ .f32 0x00000000#32) Facts₀.reducesTo_S24_S_d0 Facts₀.h_S_)
    (constant (F := Ideal) S_ .f32 0x41C00000#32)

/-- The specification's result: zero plus the sum over the pairs, divided by 24. -/
def result (a0 a1 : S8x3x1024x1024.Idx → EReal) : S_.Idx → EReal :=
  Host.divf (F := Ideal) (fun _ => Ideal.ofBits .f32 0x00000000#32 + total two a0 a1) (constant (F := Ideal) S_ .f32 0x41C00000#32)

/-- The program's result buffer after the run is the tail of the output array. -/
theorem tail_v6 (c : Dev nD) :
    Pipeline.afterTail₀ cfgs (dats m) 0 (V0 m) [hostOps1] c main_v6 = tailFn ((dats m 0 c).arrAt 2 cfg0.N) := by
  have hw : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  unfold Pipeline.afterTail₀
  show StableHlo.after hostOps1 _ (Proc.devRef .tc main_v6) = _
  after_results
  rw [hw]
  rfl

/-- The lane taken for pair `p`. -/
theorem lane_apply (O : S24x1x128.Idx → EReal) (p : Fin 24) :
    shapeCast S24 (extractStridedSlice S24x1x1 ![0, 0, 0] O Facts₀.slices_S24x1x128_S24x1x1_0_0_0) Facts₀.shapeCasts_S24x1x1_S24 (ix1 p)
      = O (ix3 p (0 : Fin 1) (0 : Fin 128)) := by
  refine (shapeCast_apply _ _ (ix1 p) (ix3 p (0 : Fin 1) (0 : Fin 1)) ?_).trans ?_
  · rw [Shape.rowMajor_val_three, Shape.rowMajor_val_one]
    show (p.val * 1 + 0) * 1 + 0 = p.val
    omega
  · exact extractStridedSlice_apply _ O _ _ _ (fun a => by
      match a with
      | ⟨0, _⟩ => show p.val = 0 + p.val; omega
      | ⟨1, _⟩ => rfl
      | ⟨2, _⟩ => rfl)

/-- The host's sum of 24 values from zero. -/
theorem sum24 (y : S24.Idx → EReal) (i : S_.Idx) :
    Host.reduceAdd (F := Ideal) y (constant (F := Ideal) S_ .f32 0x00000000#32) Facts₀.reducesTo_S24_S_d0 Facts₀.h_S_ i
      = Ideal.ofBits .f32 0x00000000#32 + ∑ j : S24.Idx, y j := by
  simp only [Host.reduceAdd, Ideal.hostReduceAdd_def]
  exact Ideal.hostReduceAdd_total Facts₀.reducesTo_S24_S_d0 (fun b => b.elim0) y _ i

/-- The tail of the output array of the viewed arguments is the specification's result. -/
theorem tail_value (a0 a1 : S8x3x1024x1024.Idx → EReal) :
    tailFn (outArr (asPairs a0) (asPairs a1)) = result a0 a1 := by
  unfold tailFn result
  refine congrArg (fun s => Host.divf (F := Ideal) s (constant (F := Ideal) S_ .f32 0x41C00000#32)) (funext fun i => ?_)
  rw [sum24, sum_idx1, sum_pairs]
  unfold total
  refine congrArg (_ + ·) (Finset.sum_congr rfl fun b _ => Finset.sum_congr rfl fun c _ => ?_)
  rw [lane_apply]
  show kerPair two (pairOf (asPairs a0) (pairIdx b c)) (pairOf (asPairs a1) (pairIdx b c)) = _
  rw [pairOf_asPairs, pairOf_asPairs]
  exact kerPair_eq_refPair (by decide) (by decide) two _ _

/-- The result buffer after the run, of the arguments as launched. -/
theorem value (c : Dev nD) :
    Pipeline.afterTail₀ cfgs (dats m) 0 (V0 m) [hostOps1] c main_v6
      = result (m ((c : Thread nD τ).loc main_arg0)) (m ((c : Thread nD τ).loc main_arg1)) := by
  rw [tail_v6, final_arr, V_v0, V_v1]
  exact tail_value _ _

/-! ## The run, read -/

/-- The frame run re-posted: the result at the specification's value, the arguments unchanged. -/
theorem run : θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 (by decide) (by decide))).trans (value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Hausdorff.Ker

end
-- ==== Proof.lean ====
/-
  The mean over 24 pairs of point sets of their symmetric Hausdorff distance: the kernel program against the reference.

  Each pair is two sets of 1024 points in 1024 dimensions.  The reference forms every squared distance
  `d²(n, m) = (‖x n‖² + ‖y m‖²) − 2·⟨x n, y m⟩`, takes the root of each clamped at zero, then the two directed distances
  `max_n min_m` and `max_m min_n` and their maximum, and averages over the pairs.  The kernel stages one pair per grid
  point, reduces on the squared distance — in the forward direction adding `‖x n‖²` only after the minimum over `m` —
  and takes one root of the larger directed value clamped at zero; its program then averages lane `(p, 0, 0)` of the
  pairs.  At the ideal values (extended reals, exact operations, format changes the identity) the two agree: the root of
  the clamped value is monotone, so it commutes with the finite minima and maxima; adding a fixed value commutes with a
  minimum; and the two groupings of the squared distance are equal by commutativity and associativity alone.  No
  finiteness of the inputs is used.

  The frames of the two kernel programs are the generated ones; the reference's frame is its generated run with the
  result dropped.  The kernel's idealization rewrote nothing, so `preserves` is trivial.  `algebraic` puts the two runs
  side by side at the same value `result` of the arguments.
-/
import proofs.«132896_j44796508897916_2_alg».proof.Defs
import proofs.«132896_j44796508897916_2_alg».proof.Proof.Gen.Kernel
import proofs.«132896_j44796508897916_2_alg».proof.Proof.Gen.Kernel.Skeleton
import proofs.«132896_j44796508897916_2_alg».proof.Proof.Gen.Kernel.Launch
import proofs.«132896_j44796508897916_2_alg».proof.Proof.Gen.Kernel.Points
import proofs.«132896_j44796508897916_2_alg».proof.Proof.Gen.Kernel.Frame
import proofs.«132896_j44796508897916_2_alg».proof.Proof.Gen.KernelIdeal
import proofs.«132896_j44796508897916_2_alg».proof.Proof.Gen.KernelIdeal.Skeleton
import proofs.«132896_j44796508897916_2_alg».proof.Proof.Gen.KernelIdeal.Launch
import proofs.«132896_j44796508897916_2_alg».proof.Proof.Gen.KernelIdeal.Points
import proofs.«132896_j44796508897916_2_alg».proof.Proof.Gen.KernelIdeal.Frame
import proofs.«132896_j44796508897916_2_alg».proof.Proof.Gen.ReferenceIdeal
import proofs.«132896_j44796508897916_2_alg».proof.Proof.Gen.Pre_finite_inputs
import proofs.«132896_j44796508897916_2_alg».proof.Proof.Gen.ReferenceIdeal.Run
import proofs.«132896_j44796508897916_2_alg».proof.Proof.Gen.ReferenceIdeal.Read
import proofs.«132896_j44796508897916_2_alg».proof.Proof.RefValue
import proofs.«132896_j44796508897916_2_alg».proof.Proof.KerTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's last stage is the specification's result: its sum stage is zero plus the sum over the pairs
    (`ref_sum`), divided by the same 24. -/
theorem ref_result (x0 x1 : (⟨Cert.ReferenceIdeal.S8x3x1024x1024, .f32⟩ : BufTy).Contents (Elt Ideal)) :
    Cert.ReferenceIdeal.Read.val_main_v22 (F := Ideal) x0 x1 = Cert.Hausdorff.Ker.result x0 x1 := by
  unfold Cert.ReferenceIdeal.Read.val_main_v22
  rw [Cert.Hausdorff.Ref.ref_sum]
  rfl

/-- Both programs end at `result` of the arguments, which agree. -/
theorem algebraic : Cert.algebraic_KernelIdeal_ReferenceIdeal := by
  intro m ρ m' ρ' _ hagree
  refine ⟨_, Cert.Hausdorff.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  exact ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
